-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S5000x128 : Shape := ⟨2, ![5000, 128]⟩
abbrev S800000x128 : Shape := ⟨2, ![800000, 128]⟩
abbrev S50000x1 : Shape := ⟨2, ![50000, 1]⟩
abbrev S1x128 : Shape := ⟨2, ![1, 128]⟩
abbrev S5000x1 : Shape := ⟨2, ![5000, 1]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 102
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S50000, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S800000x1, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x1, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S800000x1, .f32⟩
  | .hbm, ⟨73, _⟩ => ⟨S800000x128, .f32⟩
  | .hbm, ⟨74, _⟩ => ⟨S800000x128, .f32⟩
  | .hbm, ⟨75, _⟩ => ⟨S_, .f32⟩
  | .hbm, ⟨76, _⟩ => ⟨S50000x128, .f32⟩
  | .hbm, ⟨77, _⟩ => ⟨S800000x1, .i32⟩
  | .hbm, ⟨78, _⟩ => ⟨S50000x128, .f32⟩
  | .hbm, ⟨79, _⟩ => ⟨S50000x1, .f32⟩
  | .hbm, ⟨80, _⟩ => ⟨S1x128, .f32⟩
  | .hbm, ⟨81, _⟩ => ⟨S50000x128, .f32⟩
  | .hbm, ⟨82, _⟩ => ⟨S50000x64, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x64, .f32⟩
  | .hbm, ⟨92, _⟩ => ⟨S800000x1, .f32⟩
  | .hbm, ⟨93, _⟩ => ⟨S800000x64, .f32⟩
  | .hbm, ⟨94, _⟩ => ⟨S800000x64, .f32⟩
  | .hbm, ⟨95, _⟩ => ⟨S_, .f32⟩
  | .hbm, ⟨96, _⟩ => ⟨S50000x64, .f32⟩
  | .hbm, ⟨97, _⟩ => ⟨S800000x1, .i32⟩
  | .hbm, ⟨98, _⟩ => ⟨S50000x64, .f32⟩
  | .hbm, ⟨99, _⟩ => ⟨S50000x1, .f32⟩
  | .hbm, ⟨100, _⟩ => ⟨S1x64, .f32⟩
  | .hbm, ⟨101, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_c_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v75) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v76) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 177
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S50000x128, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S800000x1, .f32⟩
  | 52 => ⟨S800000x128, .f32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S50000, .f32⟩
  | 59 => ⟨S50000x1, .f32⟩
  | 60 => ⟨S50000x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S800000, .f32⟩
  | 69 => ⟨S_, .f32⟩
  | 70 => ⟨S50000, .f32⟩
  | 71 => ⟨S800000x1, .i32⟩
  | 72 => ⟨S50000, .f32⟩
  | 73 => ⟨S_, .f32⟩
  | 74 => ⟨S50000, .f32⟩
  | 75 => ⟨S50000, .f32⟩
  | 76 => ⟨S50000, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000, .f32⟩
  | 95 => ⟨S800000, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S800000x1, .f32⟩
  | 106 => ⟨S800000x128, .f32⟩
  | 107 => ⟨S800000x128, .f32⟩
  | 108 => ⟨S_, .f32⟩
  | 109 => ⟨S50000x128, .f32⟩
  | 110 => ⟨S800000x1, .i32⟩
  | 111 => ⟨S50000x128, .f32⟩
  | 112 => ⟨S50000, .f32⟩
  | 113 => ⟨S50000x1, .f32⟩
  | 114 => ⟨S50000x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S50000x64, .f32⟩
  | 121 => ⟨S_, .f32⟩
  | 122 => ⟨S800000, .f32⟩
  | 123 => ⟨S_, .f32⟩
  | 124 => ⟨S50000, .f32⟩
  | 125 => ⟨S800000x1, .i32⟩
  | 126 => ⟨S50000, .f32⟩
  | 127 => ⟨S_, .f32⟩
  | _ => ⟨S50000x128, .f32⟩

abbrev hbmTy0_1 (i : Nat) : BufTy := match i % 128 with
  | 0 => ⟨S50000, .f32⟩
  | 1 => ⟨S50000, .f32⟩
  | 2 => ⟨S50000, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000, .f32⟩
  | 21 => ⟨S800000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S800000x1, .f32⟩
  | 32 => ⟨S800000x64, .f32⟩
  | 33 => ⟨S800000x64, .f32⟩
  | 34 => ⟨S_, .f32⟩
  | 35 => ⟨S50000x64, .f32⟩
  | 36 => ⟨S800000x1, .i32⟩
  | 37 => ⟨S50000x64, .f32⟩
  | 38 => ⟨S50000, .f32⟩
  | 39 => ⟨S50000x1, .f32⟩
  | 40 => ⟨S50000x64, .f32⟩
  | 41 => ⟨S50000x64, .f32⟩
  | 42 => ⟨S50000x64, .f32⟩
  | 43 => ⟨S1x64, .f32⟩
  | 44 => ⟨S50000x64, .f32⟩
  | 45 => ⟨S50000x64, .f32⟩
  | 46 => ⟨S_, .f32⟩
  | 47 => ⟨S50000x64, .f32⟩
  | 48 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_18 : Ref sig .tc := ⟨.hbm, 121, rfl⟩
abbrev main_v93 : Ref sig .tc := ⟨.hbm, 122, rfl⟩
abbrev main_cst_19 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_20 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_c_21 : Ref sig .tc := ⟨.hbm, 131, rfl⟩
abbrev main_v100 : Ref sig .tc := ⟨.hbm, 132, rfl⟩
abbrev main_v101 : Ref sig .tc := ⟨.hbm, 133, rfl⟩
abbrev main_c_22 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_c_23 : Ref sig .tc := ⟨.hbm, 140, rfl⟩
abbrev main_v107 : Ref sig .tc := ⟨.hbm, 141, rfl⟩
abbrev main_v108 : Ref sig .tc := ⟨.hbm, 142, rfl⟩
abbrev main_c_24 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_c_25 : Ref sig .tc := ⟨.hbm, 150, rfl⟩
abbrev main_v115 : Ref sig .tc := ⟨.hbm, 151, rfl⟩
abbrev main_v116 : Ref sig .tc := ⟨.hbm, 152, rfl⟩
abbrev main_c_26 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_27 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_call0_cst : Ref sig .tc := ⟨.hbm, 174, rfl⟩
abbrev main_call0_v0 : Ref sig .tc := ⟨.hbm, 175, rfl⟩
abbrev main_v136 : Ref sig .tc := ⟨.hbm, 176, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LayerSpec.lean ====
/-
  A three-layer graph convolution over N = 50000 nodes and E = 800000 directed edges (src e → dst e), as
  whole-array functions on the extended reals.

  One layer, for node features `x`, a weight matrix `W` and a bias `b`:
    xw      = x · W                                            (`mm`)
    agg[n]  = Σ_{e : dst e = n} xw[src e] · norm[e]             (`agg`: a row gather, a scale per edge, a scatter-add)
    out[n]  = (agg[n] + xw[n] · s[n]) + b                       (`comb`)
  where `deg[n] = 1 + #{e : dst e = n}`, `dinv = deg^(-1/2)`, `norm[e] = dinv[src e] · dinv[dst e]` and
  `s = dinv · dinv` depend on the edge list alone. The network is three layers (128 → 128 → 128 → 64) and one
  ReLU at the end.

  The functions are spelt with the host operations of the reference program (its dimension-number records and
  its edge-only stages), so that the reference's last stage IS their composition, by unfolding; a kernel that
  tiles `mm` and `comb` over row blocks and runs `agg` between them on the host computes the same composition.
  Nothing here opens a sum: the grouping `(agg + xw·s) + b` is the same on both sides, so no law of the
  extended reals beyond equality of terms is needed.
-/
import proofs.«144155_j80470507258222_1_alg».proof.Proof.Gen.ReferenceIdeal.Read

noncomputable section

namespace Cert.Gcn

open Cert.ReferenceIdeal Cert.ReferenceIdeal.Gen Cert.ReferenceIdeal.Read Idealize.ShloMosaic

variable {F : FTy → Type} [FloatOps F]

/-- `x · W` for a 128-column weight matrix: entry (n, j) is Σ_k x[n, k] · W[k, j]. -/
def mm128 (x : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none x w

/-- `x · W` for the 64-column weight matrix of the last layer. -/
def mm64 (x : (⟨S50000x128, .f32⟩ : BufTy).Contents (Elt F)) (w : (⟨S128x64, .f32⟩ : BufTy).Contents (Elt F)) : (⟨S50000x64, .f32⟩ : BufTy).Contents (Elt F) :=
  Host.dotGeneral dot_S50000x128_S128x64_S50000x64_1_0_0_1_n_n none x w

/-- The neighbourhood sum of 128-wide rows: row `src e` of `xw`, scaled by `norm[e]`, added into row `dst e`. -/
def agg128 (xw : (⟨S50000x128, .f32⟩ : BufTy).Contents (Elt F)) (e : (⟨S2x800000, .i32⟩ : BufTy).Contents (Elt F)) : (⟨S50000x128, .f32⟩ : BufTy).Contents (Elt F) :=
  Host.scatterAdd scatter_S50000x128_S800000x1_S800000x128_1_0_0_1 (val_main_v37 (F := F)) (val_main_v38 (F := F) e)
    (mulf (Host.gather gather_S50000x128_S800000x1_S800000x128_1_0_n_n_0_1_1128 xw (val_main_v32 (F := F) e)) (val_main_v35 (F := F) e))

/-- The neighbourhood sum of 64-wide rows. -/
def agg64 (xw : (⟨S50000x64, .f32⟩ : BufTy).Contents (Elt F)) (e : (⟨S2x800000, .i32⟩ : BufTy).Contents (Elt F)) : (⟨S50000x64, .f32⟩ : BufTy).Contents (Elt F) :=
  Host.scatterAdd scatter_S50000x64_S800000x1_S800000x64_1_0_0_1 (val_main_v125 (F := F)) (val_main_v126 (F := F) e)
    (mulf (Host.gather gather_S50000x64_S800000x1_S800000x64_1_0_n_n_0_1_164 xw (val_main_v120 (F := F) e)) (val_main_v123 (F := F) e))

/-- `(agg + xw · s) + b`, the self-loop scale `s` a column [N, 1] and the bias `b` a row [1, 128], each
    repeated along the other axis. -/
def comb128 (agg xw : (⟨S50000x128, .f32⟩ : BufTy).Contents (Elt F)) (s : (⟨S50000x1, .f32⟩ : BufTy).Contents (Elt F)) (b : (⟨S1x128, .f32⟩ : BufTy).Contents (Elt F)) : (⟨S50000x128, .f32⟩ : BufTy).Contents (Elt F) :=
  addf (addf agg (mulf xw (broadcastInDim S50000x128 ![0, 1] bcast_S50000x1_S50000x128_0_1 s)))
    (broadcastInDim S50000x128 ![0, 1] bcast_S1x128_S50000x128_0_1 b)

/-- `(agg + xw · s) + b` for 64-wide rows. -/
def comb64 (agg xw : (⟨S50000x64, .f32⟩ : BufTy).Contents (Elt F)) (s : (⟨S50000x1, .f32⟩ : BufTy).Contents (Elt F)) (b : (⟨S1x64, .f32⟩ : BufTy).Contents (Elt F)) : (⟨S50000x64, .f32⟩ : BufTy).Contents (Elt F) :=
  addf (addf agg (mulf xw (broadcastInDim S50000x64 ![0, 1] bcast_S50000x1_S50000x64_0_1 s)))
    (broadcastInDim S50000x64 ![0, 1] bcast_S1x64_S50000x64_0_1 b)

/-- The self-loop scale `dinv · dinv` as a column [N, 1]: a function of the edge list alone. -/
def selfCol (e : (⟨S2x800000, .i32⟩ : BufTy).Contents (Elt F)) : (⟨S50000x1, .f32⟩ : BufTy).Contents (Elt F) := val_main_v41 (F := F) e

/-- A 128-vector as a row [1, 128]. -/
def row128 (b : (⟨S128, .f32⟩ : BufTy).Contents (Elt F)) : (⟨S1x128, .f32⟩ : BufTy).Contents (Elt F) := val_main_v45 (F := F) b

/-- A 64-vector as a row [1, 64]. -/
def row64 (b : (⟨S64, .f32⟩ : BufTy).Contents (Elt F)) : (⟨S1x64, .f32⟩ : BufTy).Contents (Elt F) := val_main_v133 (F := F) b

/-- `max(h, 0)`, entry by entry. -/
def relu64 (h : (⟨S50000x64, .f32⟩ : BufTy).Contents (Elt F)) : (⟨S50000x64, .f32⟩ : BufTy).Contents (Elt F) := maximumf h (val_main_call0_v0 (F := F))

/-- One 128 → 128 layer. -/
def layer128 (x : (⟨S50000x128, .f32⟩ : BufTy).Contents (Elt F)) (e : (⟨S2x800000, .i32⟩ : BufTy).Contents (Elt F)) (w : (⟨S128x128, .f32⟩ : BufTy).Contents (Elt F)) (b : (⟨S128, .f32⟩ : BufTy).Contents (Elt F)) : (⟨S50000x128, .f32⟩ : BufTy).Contents (Elt F) :=
  comb128 (agg128 (mm128 x w) e) (mm128 x w) (selfCol e) (row128 b)

/-- The 128 → 64 layer. -/
def layer64 (x : (⟨S50000x128, .f32⟩ : BufTy).Contents (Elt F)) (e : (⟨S2x800000, .i32⟩ : BufTy).Contents (Elt F)) (w : (⟨S128x64, .f32⟩ : BufTy).Contents (Elt F)) (b : (⟨S64, .f32⟩ : BufTy).Contents (Elt F)) : (⟨S50000x64, .f32⟩ : BufTy).Contents (Elt F) :=
  comb64 (agg64 (mm64 x w) e) (mm64 x w) (selfCol e) (row64 b)

/-- The network: three layers and a ReLU. -/
def net (x : (⟨S50000x128, .f32⟩ : BufTy).Contents (Elt F)) (e : (⟨S2x800000, .i32⟩ : BufTy).Contents (Elt F)) (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F)) (w3 : (⟨S128x64, .f32⟩ : BufTy).Contents (Elt F)) (b3 : (⟨S64, .f32⟩ : BufTy).Contents (Elt F)) : (⟨S50000x64, .f32⟩ : BufTy).Contents (Elt F) :=
  relu64 (layer64 (layer128 (layer128 x e w1 b1) e w2 b2) e w3 b3)

/-! ## The reference computes `net`

Each layer of the reference recomputes the edge-only quantities (degree, `dinv`, `norm`, the index columns) from
the edge list; they are the same terms each time, so every layer's stage unfolds to the same function of its
input features. -/

/-- The reference's first layer. -/
theorem ref_layer1 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) :
    val_main_v47 (F := F) x0 x1 x2 x3 = layer128 x0 x1 x2 x3 := rfl

/-- The reference's second layer, over the first layer's output. -/
theorem ref_layer2 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) :
    val_main_v91 (F := F) x0 x1 x2 x3 x4 x5 = layer128 (val_main_v47 (F := F) x0 x1 x2 x3) x1 x4 x5 := rfl

/-- The reference's third layer, over the second layer's output. -/
theorem ref_layer3 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) :
    val_main_v135 (F := F) x0 x1 x2 x3 x4 x5 x6 x7 = layer64 (val_main_v91 (F := F) x0 x1 x2 x3 x4 x5) x1 x6 x7 := rfl

/-- The reference's result is the network of its arguments. -/
theorem ref_net (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) :
    val_main_v136 (F := F) x0 x1 x2 x3 x4 x5 x6 x7 = net x0 x1 x2 x3 x4 x5 x6 x7 := by
  have h : val_main_v136 (F := F) x0 x1 x2 x3 x4 x5 x6 x7 = relu64 (val_main_v135 (F := F) x0 x1 x2 x3 x4 x5 x6 x7) := rfl
  rw [h, ref_layer3, ref_layer2, ref_layer1]
  rfl

end Cert.Gcn

end
-- ==== Proof.KernelRun.lean ====
/-
  The idealized kernel's run with its RESULT array named.

  @main is ten segments — a host stretch computing the edge-only quantities, then per layer a matrix-product region,
  a host stretch (gather, scale, scatter-add, two reshapes) and a combine region. The buffer contents at each segment
  boundary form a fold from the launch memory: a host stretch applies its operations, a region replaces its arrays
  by what its write-backs leave. Every weakly fair execution terminates with every unscoped buffer at the last
  boundary's contents; in particular the result array `main_v77` holds the last boundary's value at that buffer, and
  the eight argument arrays are as launched (no segment writes one).
-/
import proofs.«144155_j80470507258222_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last segment
    boundary's contents and the argument arrays as launched. -/
theorem run_result : θ_run defs (onTc (τ := τ) (main (F := F))) ⟨m, fun _ => 0, ρ⟩ (fun r => ∀ c : Dev nD,
      r.2.mem ((c.tc : Thread nD τ).loc main_v77) = W10 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v77 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.RunValue

end
-- ==== Proof.Layout.lean ====
/-
  Two reshapes that only add a unit axis, read as the broadcasts the other program spells them with: a vector [a]
  as a column [a, 1] holds, at (i, 0), the vector's entry i; as a row [1, a] it holds, at (0, j), entry j. A
  reshape keeps row-major order and a broadcast along a new unit axis copies nothing, so the two arrays agree
  entry by entry.
-/
import Idealize.ShloMosaic.Lib.Pipeline.Value
import Idealize.ShloMosaic.Lib.ValueIdx
import Idealize.ShloMosaic.Lib.ValueLayout

noncomputable section

namespace Cert.Layout

open Idealize.ShloMosaic Idealize.ShloMosaic.ValueIdx

variable {α : Type}

/-- A vector [a] (a > 1) reshaped to a column [a, 1] is the vector broadcast along a new second axis. -/
theorem col_eq {a : ℕ} (ha : a ≠ 1) (x : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ x h = broadcastInDim ⟨2, ![a, 1]⟩ ![0] h' x := by
  funext j
  have hj1 : (j 1).val = 0 := by have := (j 1).isLt; change (j 1).val < 1 at this; omega
  have hq : (j 0).val < a := (j 0).isLt
  rw [shapeCast_apply x h j (ix1 (⟨(j 0).val, hq⟩ : Fin a)) (by
        rw [Shape.rowMajor_val_one, Shape.rowMajor_val_two]
        show (j 0).val = (j 0).val * 1 + (j 1).val
        rw [hj1, Nat.mul_one, Nat.add_zero]),
      broadcastInDim_apply ![0] h' x j (ix1 (⟨(j 0).val, hq⟩ : Fin a)) (fun k => by
        match k with
        | ⟨0, _⟩ => show (j 0).val = if a = 1 then 0 else (j 0).val; rw [if_neg ha])]

/-- A vector [a] (a > 1) reshaped to a row [1, a] is the vector broadcast along a new first axis. -/
theorem row_eq {a : ℕ} (ha : a ≠ 1) (x : (⟨1, ![a]⟩ : Shape).Idx → α)
    (h : (⟨1, ![a]⟩ : Shape).ShapeCasts ⟨2, ![1, a]⟩) (h' : (⟨1, ![a]⟩ : Shape).BroadcastsInDim ⟨2, ![1, a]⟩ ![1]) :
    shapeCast ⟨2, ![1, a]⟩ x h = broadcastInDim ⟨2, ![1, a]⟩ ![1] h' x := by
  funext j
  have hj0 : (j 0).val = 0 := by have := (j 0).isLt; change (j 0).val < 1 at this; omega
  have hq : (j 1).val < a := (j 1).isLt
  rw [shapeCast_apply x h j (ix1 (⟨(j 1).val, hq⟩ : Fin a)) (by
        rw [Shape.rowMajor_val_one, Shape.rowMajor_val_two]
        show (j 1).val = (j 0).val * a + (j 1).val
        rw [hj0, Nat.zero_mul, Nat.zero_add]),
      broadcastInDim_apply ![1] h' x j (ix1 (⟨(j 1).val, hq⟩ : Fin a)) (fun k => by
        match k with
        | ⟨0, _⟩ => show (j 1).val = if a = 1 then 0 else (j 1).val; rw [if_neg ha])]

end Cert.Layout

end
-- ==== Proof.FoldKeep.lean ====
/-
  Buffers that a stretch of the program leaves alone. The contents at each segment boundary form a fold from the
  launch memory; a buffer that no host operation of a stretch writes and that is no array of a region keeps its
  contents across it. Used for the edge-only quantities (source and destination indices, the per-edge scale, the
  self-loop scale), computed once before the first region and read by every later host stretch, and for each
  weight and bias argument up to the segment that reads it.
-/
import proofs.«144155_j80470507258222_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem W2_main_v1_W1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem W5_main_v1_W2 (c : Dev nD) : W5 m ρ c (Proc.devRef .tc main_v1) = W2 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W8_main_v1_W5 (c : Dev nD) : W8 m ρ c (Proc.devRef .tc main_v1) = W5 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := W7_of_ne m ρ c main_v1 (by decide)
    _ = W5 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W2_main_v3_W1 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem W5_main_v3_W2 (c : Dev nD) : W5 m ρ c (Proc.devRef .tc main_v3) = W2 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W8_main_v3_W5 (c : Dev nD) : W8 m ρ c (Proc.devRef .tc main_v3) = W5 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W2_main_v25_W1 (c : Dev nD) : W2 m ρ c (Proc.devRef .tc main_v25) = W1 m ρ c (Proc.devRef .tc main_v25) :=
  calc W2 m ρ c (Proc.devRef .tc main_v25)
    _ = W1 m ρ c (Proc.devRef .tc main_v25) := W2_of_ne m ρ c main_v25 (by decide)

theorem W5_main_v25_W2 (c : Dev nD) : W5 m ρ c (Proc.devRef .tc main_v25) = W2 m ρ c (Proc.devRef .tc main_v25) :=
  calc W5 m ρ c (Proc.devRef .tc main_v25)
    _ = W4 m ρ c (Proc.devRef .tc main_v25) := W5_of_ne m ρ c main_v25 (by decide)
    _ = W3 m ρ c (Proc.devRef .tc main_v25) := W4_of_ne m ρ c main_v25 (by decide)
    _ = W2 m ρ c (Proc.devRef .tc main_v25) := StableHlo.after_of_forall_not_mem (b := Proc.devRef .tc main_v25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W8_main_v25_W5 (c : Dev nD) : W8 m ρ c (Proc.devRef .tc main_v25) = W5 m ρ c (Proc.devRef .tc main_v25) :=
  calc W8 m ρ c (Proc.devRef .tc main_v25)
    _ = W7 m ρ c (Proc.devRef .tc main_v25) := W8_of_ne m ρ c main_v25 (by decide)
    _ = W6 m ρ c (Proc.devRef .tc main_v25) := W7_of_ne m ρ c main_v25 (by decide)
    _ = W5 m ρ c (Proc.devRef .tc main_v25) := StableHlo.after_of_forall_not_mem (b := Proc.devRef .tc main_v25) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W2_main_v26_W1 (c : Dev nD) : W2 m ρ c (Proc.devRef .tc main_v26) = W1 m ρ c (Proc.devRef .tc main_v26) :=
  calc W2 m ρ c (Proc.devRef .tc main_v26)
    _ = W1 m ρ c (Proc.devRef .tc main_v26) := W2_of_ne m ρ c main_v26 (by decide)

theorem W5_main_v26_W2 (c : Dev nD) : W5 m ρ c (Proc.devRef .tc main_v26) = W2 m ρ c (Proc.devRef .tc main_v26) :=
  calc W5 m ρ c (Proc.devRef .tc main_v26)
    _ = W4 m ρ c (Proc.devRef .tc main_v26) := W5_of_ne m ρ c main_v26 (by decide)
    _ = W3 m ρ c (Proc.devRef .tc main_v26) := W4_of_ne m ρ c main_v26 (by decide)
    _ = W2 m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W8_main_v26_W5 (c : Dev nD) : W8 m ρ c (Proc.devRef .tc main_v26) = W5 m ρ c (Proc.devRef .tc main_v26) :=
  calc W8 m ρ c (Proc.devRef .tc main_v26)
    _ = W7 m ρ c (Proc.devRef .tc main_v26) := W8_of_ne m ρ c main_v26 (by decide)
    _ = W6 m ρ c (Proc.devRef .tc main_v26) := W7_of_ne m ρ c main_v26 (by decide)
    _ = W5 m ρ c (Proc.devRef .tc main_v26) := StableHlo.after_of_forall_not_mem (b := Proc.devRef .tc main_v26) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W1_main_arg0_W0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W1_main_arg2_W0 (c : Dev nD) : W1 m ρ c (Proc.devRef .tc main_arg2) = W0 m ρ c (Proc.devRef .tc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W2_main_arg3_W0 (c : Dev nD) : W2 m ρ c (Proc.devRef .tc main_arg3) = W0 m ρ c (Proc.devRef .tc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W4_main_arg4_W0 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W5_main_arg5_W0 (c : Dev nD) : W5 m ρ c (Proc.devRef .tc main_arg5) = W0 m ρ c (Proc.devRef .tc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W7_main_arg6_W0 (c : Dev nD) : W7 m ρ c (Proc.devRef .tc main_arg6) = W0 m ρ c (Proc.devRef .tc main_arg6) :=
  calc W7 m ρ c (Proc.devRef .tc main_arg6)
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W8_main_arg7_W0 (c : Dev nD) : W8 m ρ c (Proc.devRef .tc main_arg7) = W0 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Fold

end
-- ==== Proof.RegionMatmul.lean ====
/-
  The three matrix-product regions, each as ONE whole-array function of what it finds at entry.

  A region walks ten row blocks of 5000 rows. At block `t` the body loads rows 5000·t … 5000·t+4999 of the left
  operand and the whole right operand, forms their product into a zero accumulator (the change of float format
  before the product is the identity on the extended reals), and writes the block back to the same rows of the
  output. Entry (r, j) of block `t` is Σ_k x[5000·t + r, k] · W[k, j], which is entry (5000·t + r, j) of `x · W`;
  the ten blocks tile the rows, so the output array ends as `x · W`.
-/
import proofs.«144155_j80470507258222_1_alg».proof.Proof.LayerSpec
import proofs.«144155_j80470507258222_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

set_option quotPrecheck false in
/-- The TensorCore's buffer contents when a region is entered. -/
local notation "Entry" => (c : Dev nD) → (b : Ref sig .tc) → Buf (Elt Ideal) ((c : Thread nD τ).loc b)

/-- A store or load at offset (0, 0) is at offset zero on every axis. -/
theorem zeroOff : (![0, 0] : Fin 2 → Nat) = fun _ => 0 := funext fun a => by fin_cases a <;> rfl

/-- The left operand's entry (row of `j`, column `k`). -/
abbrev lrow128 (j : S5000x128.Idx) (k : Fin 128) : S5000x128.Idx := fun a => match a with
  | ⟨0, _⟩ => ⟨(j 0).val, (j 0).isLt⟩
  | ⟨1, _⟩ => ⟨k.val, k.isLt⟩
/-- The right operand's entry (row `k`, column of `j`). -/
abbrev rcol128 (j : S5000x128.Idx) (k : Fin 128) : S128x128.Idx := fun a => match a with
  | ⟨0, _⟩ => ⟨k.val, k.isLt⟩
  | ⟨1, _⟩ => ⟨(j 1).val, (j 1).isLt⟩

theorem lhs128_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs128_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs128_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into a zero accumulator, entry by entry: Σ_k x0[r, k] · x1[k, j]. -/
theorem blockDot128_apply (x0 : FVec Ideal S5000x128 .f32) (x1 : FVec Ideal S128x128 .f32) (j : S5000x128.Idx) :
    FloatOps.matmul dot_S5000x128_S128x128_S5000x128_1_0_0_1_n_n none x0 x1 (constant S5000x128 .f32 0x00000000#32) j
      = ∑ k : Fin 128, x0 (lrow128 j k) * x1 (rcol128 j k) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lrow128 j k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx j ((ValueIdx.contrEquiv1 dot_S5000x128_S128x128_S5000x128_1_0_0_1_n_n 128 rfl rfl).symm k) = rcol128 j k := funext fun a => Fin.ext (by
    match a with
    | ⟨0, _⟩ => exact (rhs128_0 _ _).trans hk
    | ⟨1, _⟩ => exact rhs128_1 _ _)
  rw [el, er]

theorem pay0_apply (x0 : Vec Ideal S5000x128 .f32) (x1 : Vec Ideal S128x128 .f32) (j : S5000x128.Idx) :
    k0_pay1 (F := Ideal) x0 x1 j = ∑ k : Fin 128, x0 (lrow128 j k) * x1 (rcol128 j k) :=
  blockDot128_apply x0 x1 j

/-- An entry of a row block's product is an entry of the whole product, when the block's row is that row of the left
    operand and the right block is the whole right operand. -/
theorem entry0 (A : (⟨Cert.ReferenceIdeal.S50000x128, .f32⟩ : BufTy).Contents (Elt Ideal)) (B : (⟨Cert.ReferenceIdeal.S128x128, .f32⟩ : BufTy).Contents (Elt Ideal))
    (x0 : Vec Ideal S5000x128 .f32) (x1 : Vec Ideal S128x128 .f32) (j : S5000x128.Idx) (i : Cert.ReferenceIdeal.S50000x128.Idx)
    (h0 : ∀ k : Fin 128, x0 (lrow128 j k) = A (Cert.ReferenceIdeal.Read.lidx_main_v4 i k))
    (h1 : ∀ k : Fin 128, x1 (rcol128 j k) = B (Cert.ReferenceIdeal.Read.ridx_main_v4 i k)) :
    k0_pay1 (F := Ideal) x0 x1 j = Cert.Gcn.mm128 (F := Ideal) A B i := by
  rw [pay0_apply]
  refine Eq.trans ?_ (Cert.ReferenceIdeal.Read.val_main_v4_apply A B i).symm
  exact Finset.sum_congr rfl fun k _ => by rw [h0 k, h1 k]

/-- The block-index maps over the grid: at point `t` the left operand's and the output's blocks are row block `t`;
    every other block index is 0. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is row block `t` of the product of the arrays the region finds. -/
theorem flushed0 (V : Entry) (c : Dev nD) (t : Fin cfg0.N) :
    (dat0 (F := Ideal) V c).flushed 2 t
      = ((cfg0.win 2).blk t).view.read (Elt Ideal) (Cert.Gcn.mm128 (F := Ideal) (V c main_arg0) (V c main_arg2)) := by
  show (cfg0.win 2).cut (grid0.coords t) ((dat0 V c).after 2 t) = _
  rw [after0_2]
  unfold out0_2
  rw [View.canon_unit_zero zeroOff]
  simp only [View.ld_unit_zero (S := S5000x128) zeroOff, View.ld_unit_zero (S := S128x128) zeroOff]
  obtain ⟨e00, e01, e10, e11, e20, e21⟩ := blockIdx0 t
  funext j
  refine entry0 (V c main_arg0) (V c main_arg2) (iblk0 V c 0 t) (iblk0 V c 1 t) j (((cfg0.win 2).blk t).view.emb j) (fun k => ?_) (fun k => ?_)
  · show V c main_arg0 (((cfg0.win 0).blk t).view.emb (lrow128 j k)) = V c main_arg0 _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg2 (((cfg0.win 1).blk t).view.emb (rcol128 j k)) = V c main_arg2 _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range on its axis. -/
theorem mem_rows0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- The ten row blocks tile the rows: row `r` is in block `r / 5000`. -/
theorem rows_cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  refine ⟨t, flush0_2 t, ?_⟩
  obtain ⟨e00, e01, e10, e11, e20, e21⟩ := blockIdx0 t
  have ht : t.val = (i 0).val / 5000 := rfl
  rw [mem_rows0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- Region 2's payload: the change of shape to the same shape is the identity, then the block product. -/
theorem pay2_apply (x0 : Vec Ideal S5000x128 .f32) (x1 : Vec Ideal S128x128 .f32) (j : S5000x128.Idx) :
    k2_pay1 (F := Ideal) x0 x1 j = ∑ k : Fin 128, x0 (lrow128 j k) * x1 (rcol128 j k) :=
  (congrArg (fun v : FVec Ideal S5000x128 .f32 => FloatOps.matmul dot_S5000x128_S128x128_S5000x128_1_0_0_1_n_n none v x1 (constant S5000x128 .f32 0x00000000#32) j)
    (shapeCast_self x0 shapeCasts_S5000x128_S5000x128)).trans (blockDot128_apply x0 x1 j)

/-- An entry of a row block's product is an entry of the whole product, when the block's row is that row of the left
    operand and the right block is the whole right operand. -/
theorem entry2 (A : (⟨Cert.ReferenceIdeal.S50000x128, .f32⟩ : BufTy).Contents (Elt Ideal)) (B : (⟨Cert.ReferenceIdeal.S128x128, .f32⟩ : BufTy).Contents (Elt Ideal))
    (x0 : Vec Ideal S5000x128 .f32) (x1 : Vec Ideal S128x128 .f32) (j : S5000x128.Idx) (i : Cert.ReferenceIdeal.S50000x128.Idx)
    (h0 : ∀ k : Fin 128, x0 (lrow128 j k) = A (Cert.ReferenceIdeal.Read.lidx_main_v4 i k))
    (h1 : ∀ k : Fin 128, x1 (rcol128 j k) = B (Cert.ReferenceIdeal.Read.ridx_main_v4 i k)) :
    k2_pay1 (F := Ideal) x0 x1 j = Cert.Gcn.mm128 (F := Ideal) A B i := by
  rw [pay2_apply]
  refine Eq.trans ?_ (Cert.ReferenceIdeal.Read.val_main_v4_apply A B i).symm
  exact Finset.sum_congr rfl fun k _ => by rw [h0 k, h1 k]

/-- The block-index maps over the grid: at point `t` the left operand's and the output's blocks are row block `t`;
    every other block index is 0. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is row block `t` of the product of the arrays the region finds. -/
theorem flushed2 (V : Entry) (c : Dev nD) (t : Fin cfg2.N) :
    (dat2 (F := Ideal) V c).flushed 2 t
      = ((cfg2.win 2).blk t).view.read (Elt Ideal) (Cert.Gcn.mm128 (F := Ideal) (V c main_v43) (V c main_arg4)) := by
  show (cfg2.win 2).cut (grid2.coords t) ((dat2 V c).after 2 t) = _
  rw [after2_2]
  unfold out2_2
  rw [View.canon_unit_zero zeroOff]
  simp only [View.ld_unit_zero (S := S5000x128) zeroOff, View.ld_unit_zero (S := S128x128) zeroOff]
  obtain ⟨e00, e01, e10, e11, e20, e21⟩ := blockIdx2 t
  funext j
  refine entry2 (V c main_v43) (V c main_arg4) (iblk2 V c 0 t) (iblk2 V c 1 t) j (((cfg2.win 2).blk t).view.emb j) (fun k => ?_) (fun k => ?_)
  · show V c main_v43 (((cfg2.win 0).blk t).view.emb (lrow128 j k)) = V c main_v43 _
    refine congrArg (V c main_v43) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_arg4 (((cfg2.win 1).blk t).view.emb (rcol128 j k)) = V c main_arg4 _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the output array is in point `t`'s block iff each coordinate is in the block's range on its axis. -/
theorem mem_rows2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- The ten row blocks tile the rows: row `r` is in block `r / 5000`. -/
theorem rows_cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; omega⟩
  refine ⟨t, flush2_2 t, ?_⟩
  obtain ⟨e00, e01, e10, e11, e20, e21⟩ := blockIdx2 t
  have ht : t.val = (i 0).val / 5000 := rfl
  rw [mem_rows2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The left operand's entry (row of `j`, column `k`). -/
abbrev lrow64 (j : S5000x64.Idx) (k : Fin 128) : S5000x128.Idx := fun a => match a with
  | ⟨0, _⟩ => ⟨(j 0).val, (j 0).isLt⟩
  | ⟨1, _⟩ => ⟨k.val, k.isLt⟩
/-- The right operand's entry (row `k`, column of `j`). -/
abbrev rcol64 (j : S5000x64.Idx) (k : Fin 128) : S128x64.Idx := fun a => match a with
  | ⟨0, _⟩ => ⟨k.val, k.isLt⟩
  | ⟨1, _⟩ => ⟨(j 1).val, (j 1).isLt⟩

theorem lhs64_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs64_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs64_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs64_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A block product into a zero accumulator, entry by entry: Σ_k x0[r, k] · x1[k, j]. -/
theorem blockDot64_apply (x0 : FVec Ideal S5000x128 .f32) (x1 : FVec Ideal S128x64 .f32) (j : S5000x64.Idx) :
    FloatOps.matmul dot_S5000x128_S128x64_S5000x64_1_0_0_1_n_n none x0 x1 (constant S5000x64 .f32 0x00000000#32) j
      = ∑ k : Fin 128, x0 (lrow64 j k) * x1 (rcol64 j k) := by
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = lrow64 j k := funext fun a => Fin.ext (by
    match a with
    | ⟨0, _⟩ => exact lhs64_0 _ _
    | ⟨1, _⟩ => exact (lhs64_1 _ _).trans hk)
  have er : dot_S5000x128_S128x64_S5000x64_1_0_0_1_n_n.rhsIdx j ((ValueIdx.contrEquiv1 dot_S5000x128_S128x64_S5000x64_1_0_0_1_n_n 128 rfl rfl).symm k) = rcol64 j k := funext fun a => Fin.ext (by
    match a with
    | ⟨0, _⟩ => exact (rhs64_0 _ _).trans hk
    | ⟨1, _⟩ => exact rhs64_1 _ _)
  rw [el, er]

/-- The 64-column product read at an index: entry (n, j) is Σ_k x[n, k] · W[k, j]. -/
theorem mm64_apply (A : (⟨Cert.ReferenceIdeal.S50000x128, .f32⟩ : BufTy).Contents (Elt Ideal)) (B : (⟨Cert.ReferenceIdeal.S128x64, .f32⟩ : BufTy).Contents (Elt Ideal)) (i : Cert.ReferenceIdeal.S50000x64.Idx) :
    Cert.Gcn.mm64 (F := Ideal) A B i = ∑ k : Fin 128, A (Cert.ReferenceIdeal.Read.lidx_main_v92 i k) * B (Cert.ReferenceIdeal.Read.ridx_main_v92 i k) := by
  unfold Cert.Gcn.mm64
  simp only [Host.dotGeneral]
  rw [Ideal.dotGeneral_apply, ← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : Cert.ReferenceIdeal.dot_S50000x128_S128x64_S50000x64_1_0_0_1_n_n.lhsIdx i ((ValueIdx.contrEquiv1 Cert.ReferenceIdeal.dot_S50000x128_S128x64_S50000x64_1_0_0_1_n_n 128 rfl rfl).symm k) = Cert.ReferenceIdeal.Read.lidx_main_v92 i k := funext fun a => Fin.ext (by
    match a with
    | ⟨0, _⟩ => exact Cert.ReferenceIdeal.Read.lhs_main_v92_0 _ _
    | ⟨1, _⟩ => exact (Cert.ReferenceIdeal.Read.lhs_main_v92_1 _ _).trans hk)
  have er : Cert.ReferenceIdeal.dot_S50000x128_S128x64_S50000x64_1_0_0_1_n_n.rhsIdx i ((ValueIdx.contrEquiv1 Cert.ReferenceIdeal.dot_S50000x128_S128x64_S50000x64_1_0_0_1_n_n 128 rfl rfl).symm k) = Cert.ReferenceIdeal.Read.ridx_main_v92 i k := funext fun a => Fin.ext (by
    match a with
    | ⟨0, _⟩ => exact (Cert.ReferenceIdeal.Read.rhs_main_v92_0 _ _).trans hk
    | ⟨1, _⟩ => exact Cert.ReferenceIdeal.Read.rhs_main_v92_1 _ _)
  rw [el, er]

/-- Region 4's payload: the change of shape to the same shape is the identity, then the block product. -/
theorem pay4_apply (x0 : Vec Ideal S5000x128 .f32) (x1 : Vec Ideal S128x64 .f32) (j : S5000x64.Idx) :
    k4_pay1 (F := Ideal) x0 x1 j = ∑ k : Fin 128, x0 (lrow64 j k) * x1 (rcol64 j k) :=
  (congrArg (fun v : FVec Ideal S5000x128 .f32 => FloatOps.matmul dot_S5000x128_S128x64_S5000x64_1_0_0_1_n_n none v x1 (constant S5000x64 .f32 0x00000000#32) j)
    (shapeCast_self x0 shapeCasts_S5000x128_S5000x128)).trans (blockDot64_apply x0 x1 j)

/-- An entry of a row block's product is an entry of the whole product, when the block's row is that row of the left
    operand and the right block is the whole right operand. -/
theorem entry4 (A : (⟨Cert.ReferenceIdeal.S50000x128, .f32⟩ : BufTy).Contents (Elt Ideal)) (B : (⟨Cert.ReferenceIdeal.S128x64, .f32⟩ : BufTy).Contents (Elt Ideal))
    (x0 : Vec Ideal S5000x128 .f32) (x1 : Vec Ideal S128x64 .f32) (j : S5000x64.Idx) (i : Cert.ReferenceIdeal.S50000x64.Idx)
    (h0 : ∀ k : Fin 128, x0 (lrow64 j k) = A (Cert.ReferenceIdeal.Read.lidx_main_v92 i k))
    (h1 : ∀ k : Fin 128, x1 (rcol64 j k) = B (Cert.ReferenceIdeal.Read.ridx_main_v92 i k)) :
    k4_pay1 (F := Ideal) x0 x1 j = Cert.Gcn.mm64 (F := Ideal) A B i := by
  rw [pay4_apply]
  refine Eq.trans ?_ (mm64_apply A B i).symm
  exact Finset.sum_congr rfl fun k _ => by rw [h0 k, h1 k]

/-- The block-index maps over the grid: at point `t` the left operand's and the output's blocks are row block `t`;
    every other block index is 0. -/
theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is row block `t` of the product of the arrays the region finds. -/
theorem flushed4 (V : Entry) (c : Dev nD) (t : Fin cfg4.N) :
    (dat4 (F := Ideal) V c).flushed 2 t
      = ((cfg4.win 2).blk t).view.read (Elt Ideal) (Cert.Gcn.mm64 (F := Ideal) (V c main_v60) (V c main_arg6)) := by
  show (cfg4.win 2).cut (grid4.coords t) ((dat4 V c).after 2 t) = _
  rw [after4_2]
  unfold out4_2
  rw [View.canon_unit_zero zeroOff]
  simp only [View.ld_unit_zero (S := S5000x128) zeroOff, View.ld_unit_zero (S := S128x64) zeroOff]
  obtain ⟨e00, e01, e10, e11, e20, e21⟩ := blockIdx4 t
  funext j
  refine entry4 (V c main_v60) (V c main_arg6) (iblk4 V c 0 t) (iblk4 V c 1 t) j (((cfg4.win 2).blk t).view.emb j) (fun k => ?_) (fun k => ?_)
  · show V c main_v60 (((cfg4.win 0).blk t).view.emb (lrow64 j k)) = V c main_v60 _
    refine congrArg (V c main_v60) (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  · show V c main_arg6 (((cfg4.win 1).blk t).view.emb (rcol64 j k)) = V c main_arg6 _
    refine congrArg (V c main_arg6) (funext fun a => Fin.ext ?_)
    match a with
    | ⟨0, _⟩ => show win4_1.index t (0 : Fin 2) * 128 + 1 * k.val = k.val; omega
    | ⟨1, _⟩ => show win4_1.index t (1 : Fin 2) * 64 + 1 * (j 1).val = win4_2.index t (1 : Fin 2) * 64 + 1 * (j 1).val; omega

/-- An index of the output array is in point `t`'s block iff each coordinate is in the block's range on its axis. -/
theorem mem_rows4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v61).slice (win4_2.rect t)).set ↔ _
  rw [View.set_slice_whole, Rect.mem_set_unit]
  exact Iff.rfl

/-- The ten row blocks tile the rows: row `r` is in block `r / 5000`. -/
theorem rows_cover4 (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  have hN : grid4.N = 10 := N_4
  let t : Fin cfg4.N := ⟨(i 0).val / 5000, by show (i 0).val / 5000 < grid4.N; omega⟩
  refine ⟨t, flush4_2 t, ?_⟩
  obtain ⟨e00, e01, e10, e11, e20, e21⟩ := blockIdx4 t
  have ht : t.val = (i 0).val / 5000 := rfl
  rw [mem_rows4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- Region 0: `x · W1`. -/
theorem matmul0 (V : Entry) (c : Dev nD) :
    (dat0 (F := Ideal) V c).arrAt 2 cfg0.N = Cert.Gcn.mm128 (F := Ideal) (V c main_arg0) (V c main_arg2) :=
  (dat0 (F := Ideal) V c).arrAt_eq_of_cover 2 (Cert.Gcn.mm128 (F := Ideal) (V c main_arg0) (V c main_arg2))
    (fun t _ => flushed0 V c t) rows_cover0

/-- Region 2: `h1 · W2`. -/
theorem matmul2 (V : Entry) (c : Dev nD) :
    (dat2 (F := Ideal) V c).arrAt 2 cfg2.N = Cert.Gcn.mm128 (F := Ideal) (V c main_v43) (V c main_arg4) :=
  (dat2 (F := Ideal) V c).arrAt_eq_of_cover 2 (Cert.Gcn.mm128 (F := Ideal) (V c main_v43) (V c main_arg4))
    (fun t _ => flushed2 V c t) rows_cover2

/-- Region 4: `h2 · W3`. -/
theorem matmul4 (V : Entry) (c : Dev nD) :
    (dat4 (F := Ideal) V c).arrAt 2 cfg4.N = Cert.Gcn.mm64 (F := Ideal) (V c main_v60) (V c main_arg6) :=
  (dat4 (F := Ideal) V c).arrAt_eq_of_cover 2 (Cert.Gcn.mm64 (F := Ideal) (V c main_v60) (V c main_arg6))
    (fun t _ => flushed4 V c t) rows_cover4

end Cert.KernelIdeal.RegionValue

end
-- ==== Proof.RegionCombine.lean ====
/-
  The three combine regions, each as ONE whole-array function of what it finds at entry.

  A region walks ten row blocks of 5000 rows. At block `t` the body loads rows 5000·t … 5000·t+4999 of the
  neighbourhood sum `agg`, of the product `xw` and of the scale column `s` [N, 1], and the whole bias row `b`
  [1, C]; it repeats `s` along the columns and `b` along the rows, forms `(agg + xw · s) + b` entry by entry (the
  last region then takes the maximum with 0), and writes the block back to the same rows. Entry (r, j) of block
  `t` reads its operands at (5000·t + r, j), (5000·t + r, 0) and (0, j): entry (5000·t + r, j) of the
  whole-array combination. The ten blocks tile the rows.
-/
import proofs.«144155_j80470507258222_1_alg».proof.Proof.LayerSpec
import proofs.«144155_j80470507258222_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

variable {F : FTy → Type} [FloatOps F]

/-! ## Indices

Both shapes of a block and of an array are rank 2; the scale column has extent 1 on its second axis and the bias
row extent 1 on its first, so a repeated operand is read at coordinate 0 there. -/

theorem zeroOffsets : (![0, 0] : Fin 2 → Nat) = fun _ => 0 := funext fun a => by fin_cases a <;> rfl

/-- Entry (r, k) of a [5000, 128] block reads the scale column's block at (r, 0) … -/
abbrev blockScaleAt128 (j : S5000x128.Idx) : S5000x1.Idx := fun a => match a with
  | ⟨0, _⟩ => ⟨(j 0).val, (j 0).isLt⟩
  | ⟨1, _⟩ => ⟨0, Nat.one_pos⟩

/-- … and the bias row at (0, k). -/
abbrev blockBiasAt128 (j : S5000x128.Idx) : S1x128.Idx := fun a => match a with
  | ⟨0, _⟩ => ⟨0, Nat.one_pos⟩
  | ⟨1, _⟩ => ⟨(j 1).val, (j 1).isLt⟩

/-- Entry (n, k) of the [50000, 128] array reads the scale column at (n, 0) … -/
abbrev scaleAt128 (i : Cert.ReferenceIdeal.S50000x128.Idx) : Cert.ReferenceIdeal.S50000x1.Idx := fun a => match a with
  | ⟨0, _⟩ => ⟨(i 0).val, (i 0).isLt⟩
  | ⟨1, _⟩ => ⟨0, Nat.one_pos⟩

/-- … and the bias row at (0, k). -/
abbrev biasAt128 (i : Cert.ReferenceIdeal.S50000x128.Idx) : Cert.ReferenceIdeal.S1x128.Idx := fun a => match a with
  | ⟨0, _⟩ => ⟨0, Nat.one_pos⟩
  | ⟨1, _⟩ => ⟨(i 1).val, (i 1).isLt⟩

/-- Entry (r, k) of a [5000, 64] block reads the scale column's block at (r, 0) … -/
abbrev blockScaleAt64 (j : S5000x64.Idx) : S5000x1.Idx := fun a => match a with
  | ⟨0, _⟩ => ⟨(j 0).val, (j 0).isLt⟩
  | ⟨1, _⟩ => ⟨0, Nat.one_pos⟩

/-- … and the bias row at (0, k). -/
abbrev blockBiasAt64 (j : S5000x64.Idx) : S1x64.Idx := fun a => match a with
  | ⟨0, _⟩ => ⟨0, Nat.one_pos⟩
  | ⟨1, _⟩ => ⟨(j 1).val, (j 1).isLt⟩

/-- Entry (n, k) of the [50000, 64] array reads the scale column at (n, 0) … -/
abbrev scaleAt64 (i : Cert.ReferenceIdeal.S50000x64.Idx) : Cert.ReferenceIdeal.S50000x1.Idx := fun a => match a with
  | ⟨0, _⟩ => ⟨(i 0).val, (i 0).isLt⟩
  | ⟨1, _⟩ => ⟨0, Nat.one_pos⟩

/-- … and the bias row at (0, k). -/
abbrev biasAt64 (i : Cert.ReferenceIdeal.S50000x64.Idx) : Cert.ReferenceIdeal.S1x64.Idx := fun a => match a with
  | ⟨0, _⟩ => ⟨0, Nat.one_pos⟩
  | ⟨1, _⟩ => ⟨(i 1).val, (i 1).isLt⟩

/-! ## The whole-array combination at an index -/

/-- `(agg + xw · s) + b` over 128 columns read at an index: the scale column at the index's row, the bias row at
    its column. -/
theorem comb128_apply (agg xw : (⟨Cert.ReferenceIdeal.S50000x128, .f32⟩ : BufTy).Contents (Elt F)) (s : (⟨Cert.ReferenceIdeal.S50000x1, .f32⟩ : BufTy).Contents (Elt F)) (b : (⟨Cert.ReferenceIdeal.S1x128, .f32⟩ : BufTy).Contents (Elt F)) (i : Cert.ReferenceIdeal.S50000x128.Idx) :
    Cert.Gcn.comb128 agg xw s b i
      = FloatOps.addf (FloatOps.addf (agg i) (FloatOps.mulf (xw i) (s (scaleAt128 i)))) (b (biasAt128 i)) := by
  unfold Cert.Gcn.comb128
  show FloatOps.addf (FloatOps.addf (agg i) (FloatOps.mulf (xw i) (broadcastInDim Cert.ReferenceIdeal.S50000x128 ![0, 1] Cert.ReferenceIdeal.Gen.bcast_S50000x1_S50000x128_0_1 s i)))
      (broadcastInDim Cert.ReferenceIdeal.S50000x128 ![0, 1] Cert.ReferenceIdeal.Gen.bcast_S1x128_S50000x128_0_1 b i) = _
  rw [broadcastInDim_apply _ Cert.ReferenceIdeal.Gen.bcast_S50000x1_S50000x128_0_1 s i (scaleAt128 i) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl]),
    broadcastInDim_apply _ Cert.ReferenceIdeal.Gen.bcast_S1x128_S50000x128_0_1 b i (biasAt128 i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])]

/-- `(agg + xw · s) + b` over 64 columns read at an index: the scale column at the index's row, the bias row at
    its column. -/
theorem comb64_apply (agg xw : (⟨Cert.ReferenceIdeal.S50000x64, .f32⟩ : BufTy).Contents (Elt F)) (s : (⟨Cert.ReferenceIdeal.S50000x1, .f32⟩ : BufTy).Contents (Elt F)) (b : (⟨Cert.ReferenceIdeal.S1x64, .f32⟩ : BufTy).Contents (Elt F)) (i : Cert.ReferenceIdeal.S50000x64.Idx) :
    Cert.Gcn.comb64 agg xw s b i
      = FloatOps.addf (FloatOps.addf (agg i) (FloatOps.mulf (xw i) (s (scaleAt64 i)))) (b (biasAt64 i)) := by
  unfold Cert.Gcn.comb64
  show FloatOps.addf (FloatOps.addf (agg i) (FloatOps.mulf (xw i) (broadcastInDim Cert.ReferenceIdeal.S50000x64 ![0, 1] Cert.ReferenceIdeal.Gen.bcast_S50000x1_S50000x64_0_1 s i)))
      (broadcastInDim Cert.ReferenceIdeal.S50000x64 ![0, 1] Cert.ReferenceIdeal.Gen.bcast_S1x64_S50000x64_0_1 b i) = _
  rw [broadcastInDim_apply _ Cert.ReferenceIdeal.Gen.bcast_S50000x1_S50000x64_0_1 s i (scaleAt64 i) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl]),
    broadcastInDim_apply _ Cert.ReferenceIdeal.Gen.bcast_S1x64_S50000x64_0_1 b i (biasAt64 i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])]

/-- The combination under the maximum with 0, read at an index. -/
theorem relu_comb64_apply (agg xw : (⟨Cert.ReferenceIdeal.S50000x64, .f32⟩ : BufTy).Contents (Elt F)) (s : (⟨Cert.ReferenceIdeal.S50000x1, .f32⟩ : BufTy).Contents (Elt F)) (b : (⟨Cert.ReferenceIdeal.S1x64, .f32⟩ : BufTy).Contents (Elt F)) (i : Cert.ReferenceIdeal.S50000x64.Idx) :
    Cert.Gcn.relu64 (Cert.Gcn.comb64 agg xw s b) i
      = FloatOps.maximumf (FloatOps.addf (FloatOps.addf (agg i) (FloatOps.mulf (xw i) (s (scaleAt64 i)))) (b (biasAt64 i))) (FloatOps.ofBits .f32 0x00000000#32) := by
  unfold Cert.Gcn.relu64
  show FloatOps.maximumf (Cert.Gcn.comb64 agg xw s b i) (Cert.ReferenceIdeal.Read.val_main_call0_v0 (F := F) i) = _
  rw [comb64_apply, Cert.ReferenceIdeal.Read.val_main_call0_v0_apply, Cert.ReferenceIdeal.Read.val_main_call0_cst_apply]

/-! ## Region 1 -/

/-- The body's value at entry (r, k) of a block: its operands at (r, k), (r, 0) and (0, k). -/
theorem payload1_apply (x0 x1 : Vec F S5000x128 .f32) (x2 : Vec F S5000x1 .f32) (x3 : Vec F S1x128 .f32) (j : S5000x128.Idx) :
    k1_pay1 x0 x1 x2 x3 j
      = FloatOps.addf (FloatOps.addf (x0 j) (FloatOps.mulf (x1 j) (x2 (blockScaleAt128 j)))) (x3 (blockBiasAt128 j)) := by
  unfold k1_pay1
  simp only [shapeCast_self]
  show FloatOps.addf (FloatOps.addf (x0 j) (FloatOps.mulf (x1 j) (broadcastTo S5000x128 x2 broadcasts_S5000x1_S5000x128 j)))
      (broadcastTo S5000x128 x3 broadcasts_S1x128_S5000x128 j) = _
  rw [broadcastTo_apply x2 broadcasts_S5000x1_S5000x128 j (blockScaleAt128 j) (fun a => match a with
      | ⟨0, _⟩ => by show (j 0).val = if (5000 : Nat) = 1 then 0 else (j 0).val; rw [if_neg (by decide)]
      | ⟨1, _⟩ => by show 0 = if (1 : Nat) = 1 then 0 else (j 1).val; rw [if_pos rfl]),
    broadcastTo_apply x3 broadcasts_S1x128_S5000x128 j (blockBiasAt128 j) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])]

/-- The five index maps over the ten points: the three row windows move with the output's row block, the column
    index is always 0, the bias row's block is always (0, 0), and the output's row block at point `t` is `t`. -/
theorem blockIndex1 : ∀ t : Fin cfg1.N, win1_0.index t (0 : Fin 2) = win1_4.index t (0 : Fin 2)
    ∧ win1_0.index t (1 : Fin 2) = win1_4.index t (1 : Fin 2)
    ∧ win1_1.index t (0 : Fin 2) = win1_4.index t (0 : Fin 2)
    ∧ win1_1.index t (1 : Fin 2) = win1_4.index t (1 : Fin 2)
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) = t.val :=
  (by decide +kernel : ∀ t : Fin grid1.N, _)

/-- What point `t` writes back is block `t` of the whole-array combination of the arrays the region finds. -/
theorem writtenBack1 (V : (c : Dev nD) → (b : Ref sig .tc) → Buf (Elt F) ((c : Thread nD τ).loc b)) (c : Dev nD) (t : Fin cfg1.N) :
    (dat1 (F := F) V c).flushed 4 t
      = ((cfg1.win 4).blk t).view.read (Elt F) (Cert.Gcn.comb128 (F := F) (V c main_v40) (V c main_v27) (V c main_v41) (V c main_v42)) := by
  show (cfg1.win 4).cut (grid1.coords t) ((dat1 V c).after 4 t) = _
  rw [after1_4]
  unfold out1_4
  rw [View.canon_unit_zero zeroOffsets]
  simp only [View.ld_unit_zero (S := S5000x128) zeroOffsets, View.ld_unit_zero (S := S5000x1) zeroOffsets, View.ld_unit_zero (S := S1x128) zeroOffsets]
  obtain ⟨e00, e01, e10, e11, e20, e21, e30, e31, e41, e40⟩ := blockIndex1 t
  funext j
  refine (payload1_apply _ _ _ _ j).trans ?_
  refine Eq.trans ?_ (comb128_apply _ _ _ _ _).symm
  show FloatOps.addf (FloatOps.addf (V c main_v40 (((cfg1.win 0).blk t).view.emb j)) (FloatOps.mulf (V c main_v27 (((cfg1.win 1).blk t).view.emb j)) (V c main_v41 (((cfg1.win 2).blk t).view.emb (blockScaleAt128 j))))) (V c main_v42 (((cfg1.win 3).blk t).view.emb (blockBiasAt128 j)))
    = FloatOps.addf (FloatOps.addf (V c main_v40 (((cfg1.win 4).blk t).view.emb j)) (FloatOps.mulf (V c main_v27 (((cfg1.win 4).blk t).view.emb j)) (V c main_v41 (scaleAt128 (((cfg1.win 4).blk t).view.emb j))))) (V c main_v42 (biasAt128 (((cfg1.win 4).blk t).view.emb j)))
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  have h2 : ((cfg1.win 2).blk t).view.emb (blockScaleAt128 j) = scaleAt128 (((cfg1.win 4).blk t).view.emb j) := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have h3 : ((cfg1.win 3).blk t).view.emb (blockBiasAt128 j) = biasAt128 (((cfg1.win 4).blk t).view.emb j) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  rw [h0, h1, h2, h3]

/-- An index of the array is in point `t`'s block iff each coordinate is in the block's range on its axis. -/
theorem mem_block1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

/-- Row `r` is in the block of point `r / 5000`: the ten blocks tile the array. -/
theorem tiled1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, -, -, e1, e0⟩ := blockIndex1 ⟨(i 0).val / 5000, ht⟩
  have e0' : win1_4.index ⟨(i 0).val / 5000, ht⟩ (0 : Fin 2) = (i 0).val / 5000 := e0
  refine ⟨⟨(i 0).val / 5000, ht⟩, flush1_4 _, ?_⟩
  rw [mem_block1]
  intro a
  match a with
  | ⟨0, _⟩ => show win1_4.index ⟨(i 0).val / 5000, ht⟩ (0 : Fin 2) * 5000 ≤ (i 0).val ∧ (i 0).val < win1_4.index ⟨(i 0).val / 5000, ht⟩ (0 : Fin 2) * 5000 + 5000; omega
  | ⟨1, _⟩ => show win1_4.index ⟨(i 0).val / 5000, ht⟩ (1 : Fin 2) * 128 ≤ (i 1).val ∧ (i 1).val < win1_4.index ⟨(i 0).val / 5000, ht⟩ (1 : Fin 2) * 128 + 128; omega

/-! ## Region 3 -/

/-- The body's value at entry (r, k) of a block: its operands at (r, k), (r, 0) and (0, k). -/
theorem payload3_apply (x0 x1 : Vec F S5000x128 .f32) (x2 : Vec F S5000x1 .f32) (x3 : Vec F S1x128 .f32) (j : S5000x128.Idx) :
    k3_pay1 x0 x1 x2 x3 j
      = FloatOps.addf (FloatOps.addf (x0 j) (FloatOps.mulf (x1 j) (x2 (blockScaleAt128 j)))) (x3 (blockBiasAt128 j)) := by
  unfold k3_pay1
  simp only [shapeCast_self]
  show FloatOps.addf (FloatOps.addf (x0 j) (FloatOps.mulf (x1 j) (broadcastTo S5000x128 x2 broadcasts_S5000x1_S5000x128 j)))
      (broadcastTo S5000x128 x3 broadcasts_S1x128_S5000x128 j) = _
  rw [broadcastTo_apply x2 broadcasts_S5000x1_S5000x128 j (blockScaleAt128 j) (fun a => match a with
      | ⟨0, _⟩ => by show (j 0).val = if (5000 : Nat) = 1 then 0 else (j 0).val; rw [if_neg (by decide)]
      | ⟨1, _⟩ => by show 0 = if (1 : Nat) = 1 then 0 else (j 1).val; rw [if_pos rfl]),
    broadcastTo_apply x3 broadcasts_S1x128_S5000x128 j (blockBiasAt128 j) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])]

/-- The five index maps over the ten points: the three row windows move with the output's row block, the column
    index is always 0, the bias row's block is always (0, 0), and the output's row block at point `t` is `t`. -/
theorem blockIndex3 : ∀ t : Fin cfg3.N, win3_0.index t (0 : Fin 2) = win3_4.index t (0 : Fin 2)
    ∧ win3_0.index t (1 : Fin 2) = win3_4.index t (1 : Fin 2)
    ∧ win3_1.index t (0 : Fin 2) = win3_4.index t (0 : Fin 2)
    ∧ win3_1.index t (1 : Fin 2) = win3_4.index t (1 : Fin 2)
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (1 : Fin 2) = 0
    ∧ win3_4.index t (0 : Fin 2) = t.val :=
  (by decide +kernel : ∀ t : Fin grid3.N, _)

/-- What point `t` writes back is block `t` of the whole-array combination of the arrays the region finds. -/
theorem writtenBack3 (V : (c : Dev nD) → (b : Ref sig .tc) → Buf (Elt F) ((c : Thread nD τ).loc b)) (c : Dev nD) (t : Fin cfg3.N) :
    (dat3 (F := F) V c).flushed 4 t
      = ((cfg3.win 4).blk t).view.read (Elt F) (Cert.Gcn.comb128 (F := F) (V c main_v57) (V c main_v44) (V c main_v58) (V c main_v59)) := by
  show (cfg3.win 4).cut (grid3.coords t) ((dat3 V c).after 4 t) = _
  rw [after3_4]
  unfold out3_4
  rw [View.canon_unit_zero zeroOffsets]
  simp only [View.ld_unit_zero (S := S5000x128) zeroOffsets, View.ld_unit_zero (S := S5000x1) zeroOffsets, View.ld_unit_zero (S := S1x128) zeroOffsets]
  obtain ⟨e00, e01, e10, e11, e20, e21, e30, e31, e41, e40⟩ := blockIndex3 t
  funext j
  refine (payload3_apply _ _ _ _ j).trans ?_
  refine Eq.trans ?_ (comb128_apply _ _ _ _ _).symm
  show FloatOps.addf (FloatOps.addf (V c main_v57 (((cfg3.win 0).blk t).view.emb j)) (FloatOps.mulf (V c main_v44 (((cfg3.win 1).blk t).view.emb j)) (V c main_v58 (((cfg3.win 2).blk t).view.emb (blockScaleAt128 j))))) (V c main_v59 (((cfg3.win 3).blk t).view.emb (blockBiasAt128 j)))
    = FloatOps.addf (FloatOps.addf (V c main_v57 (((cfg3.win 4).blk t).view.emb j)) (FloatOps.mulf (V c main_v44 (((cfg3.win 4).blk t).view.emb j)) (V c main_v58 (scaleAt128 (((cfg3.win 4).blk t).view.emb j))))) (V c main_v59 (biasAt128 (((cfg3.win 4).blk t).view.emb j)))
  have h0 : ((cfg3.win 0).blk t).view.emb j = ((cfg3.win 4).blk t).view.emb j := by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  have h1 : ((cfg3.win 1).blk t).view.emb j = ((cfg3.win 4).blk t).view.emb j := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  have h2 : ((cfg3.win 2).blk t).view.emb (blockScaleAt128 j) = scaleAt128 (((cfg3.win 4).blk t).view.emb j) := by
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  have h3 : ((cfg3.win 3).blk t).view.emb (blockBiasAt128 j) = biasAt128 (((cfg3.win 4).blk t).view.emb j) := by
    funext a; apply Fin.ext
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega
  rw [h0, h1, h2, h3]

/-- An index of the array is in point `t`'s block iff each coordinate is in the block's range on its axis. -/
theorem mem_block3 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v60).slice (win3_4.rect t)).set ↔ _
  rw [View.set_slice_whole, Rect.mem_set_unit]
  exact Iff.rfl

/-- Row `r` is in the block of point `r / 5000`: the ten blocks tile the array. -/
theorem tiled3 (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨-, -, -, -, -, -, -, -, e1, e0⟩ := blockIndex3 ⟨(i 0).val / 5000, ht⟩
  have e0' : win3_4.index ⟨(i 0).val / 5000, ht⟩ (0 : Fin 2) = (i 0).val / 5000 := e0
  refine ⟨⟨(i 0).val / 5000, ht⟩, flush3_4 _, ?_⟩
  rw [mem_block3]
  intro a
  match a with
  | ⟨0, _⟩ => show win3_4.index ⟨(i 0).val / 5000, ht⟩ (0 : Fin 2) * 5000 ≤ (i 0).val ∧ (i 0).val < win3_4.index ⟨(i 0).val / 5000, ht⟩ (0 : Fin 2) * 5000 + 5000; omega
  | ⟨1, _⟩ => show win3_4.index ⟨(i 0).val / 5000, ht⟩ (1 : Fin 2) * 128 ≤ (i 1).val ∧ (i 1).val < win3_4.index ⟨(i 0).val / 5000, ht⟩ (1 : Fin 2) * 128 + 128; omega

/-! ## Region 5 -/

/-- The body's value at entry (r, k) of a block: its operands at (r, k), (r, 0) and (0, k). -/
theorem payload5_apply (x0 x1 : Vec F S5000x64 .f32) (x2 : Vec F S5000x1 .f32) (x3 : Vec F S1x64 .f32) (j : S5000x64.Idx) :
    k5_pay1 x0 x1 x2 x3 j
      = FloatOps.maximumf (FloatOps.addf (FloatOps.addf (x0 j) (FloatOps.mulf (x1 j) (x2 (blockScaleAt64 j)))) (x3 (blockBiasAt64 j))) (FloatOps.ofBits .f32 0x00000000#32) := by
  unfold k5_pay1
  simp only [shapeCast_self]
  show FloatOps.maximumf (FloatOps.addf (FloatOps.addf (x0 j) (FloatOps.mulf (x1 j) (broadcastTo S5000x64 x2 broadcasts_S5000x1_S5000x64 j)))
      (broadcastTo S5000x64 x3 broadcasts_S1x64_S5000x64 j)) (FloatOps.ofBits .f32 0x00000000#32) = _
  rw [broadcastTo_apply x2 broadcasts_S5000x1_S5000x64 j (blockScaleAt64 j) (fun a => match a with
      | ⟨0, _⟩ => by show (j 0).val = if (5000 : Nat) = 1 then 0 else (j 0).val; rw [if_neg (by decide)]
      | ⟨1, _⟩ => by show 0 = if (1 : Nat) = 1 then 0 else (j 1).val; rw [if_pos rfl]),
    broadcastTo_apply x3 broadcasts_S1x64_S5000x64 j (blockBiasAt64 j) (fun a => match a with
      | ⟨0, _⟩ => by show 0 = if (1 : Nat) = 1 then 0 else (j 0).val; rw [if_pos rfl]
      | ⟨1, _⟩ => by show (j 1).val = if (64 : Nat) = 1 then 0 else (j 1).val; rw [if_neg (by decide)])]

/-- The five index maps over the ten points: the three row windows move with the output's row block, the column
    index is always 0, the bias row's block is always (0, 0), and the output's row block at point `t` is `t`. -/
theorem blockIndex5 : ∀ t : Fin cfg5.N, win5_0.index t (0 : Fin 2) = win5_4.index t (0 : Fin 2)
    ∧ win5_0.index t (1 : Fin 2) = win5_4.index t (1 : Fin 2)
    ∧ win5_1.index t (0 : Fin 2) = win5_4.index t (0 : Fin 2)
    ∧ win5_1.index t (1 : Fin 2) = win5_4.index t (1 : Fin 2)
    ∧ win5_2.index t (0 : Fin 2) = win5_4.index t (0 : Fin 2)
    ∧ win5_2.index t (1 : Fin 2) = 0
    ∧ win5_3.index t (0 : Fin 2) = 0
    ∧ win5_3.index t (1 : Fin 2) = 0
    ∧ win5_4.index t (1 : Fin 2) = 0
    ∧ win5_4.index t (0 : Fin 2) = t.val :=
  (by decide +kernel : ∀ t : Fin grid5.N, _)

/-- What point `t` writes back is block `t` of the whole-array combination of the arrays the region finds. -/
theorem writtenBack5 (V : (c : Dev nD) → (b : Ref sig .tc) → Buf (Elt F) ((c : Thread nD τ).loc b)) (c : Dev nD) (t : Fin cfg5.N) :
    (dat5 (F := F) V c).flushed 4 t
      = ((cfg5.win 4).blk t).view.read (Elt F) (Cert.Gcn.relu64 (F := F) (Cert.Gcn.comb64 (F := F) (V c main_v74) (V c main_v61) (V c main_v75) (V c main_v76))) := by
  show (cfg5.win 4).cut (grid5.coords t) ((dat5 V c).after 4 t) = _
  rw [after5_4]
  unfold out5_4
  rw [View.canon_unit_zero zeroOffsets]
  simp only [View.ld_unit_zero (S := S5000x64) zeroOffsets, View.ld_unit_zero (S := S5000x1) zeroOffsets, View.ld_unit_zero (S := S1x64) zeroOffsets]
  obtain ⟨e00, e01, e10, e11, e20, e21, e30, e31, e41, e40⟩ := blockIndex5 t
  funext j
  refine (payload5_apply _ _ _ _ j).trans ?_
  refine Eq.trans ?_ (relu_comb64_apply _ _ _ _ _).symm
  show FloatOps.maximumf (FloatOps.addf (FloatOps.addf (V c main_v74 (((cfg5.win 0).blk t).view.emb j)) (FloatOps.mulf (V c main_v61 (((cfg5.win 1).blk t).view.emb j)) (V c main_v75 (((cfg5.win 2).blk t).view.emb (blockScaleAt64 j))))) (V c main_v76 (((cfg5.win 3).blk t).view.emb (blockBiasAt64 j)))) (FloatOps.ofBits .f32 0x00000000#32)
    = FloatOps.maximumf (FloatOps.addf (FloatOps.addf (V c main_v74 (((cfg5.win 4).blk t).view.emb j)) (FloatOps.mulf (V c main_v61 (((cfg5.win 4).blk t).view.emb j)) (V c main_v75 (scaleAt64 (((cfg5.win 4).blk t).view.emb j))))) (V c main_v76 (biasAt64 (((cfg5.win 4).blk t).view.emb j)))) (FloatOps.ofBits .f32 0x00000000#32)
  have h0 : ((cfg5.win 0).blk t).view.emb j = ((cfg5.win 4).blk t).view.emb j := by
    funext a; apply Fin.ext
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 64 + 1 * (j 1).val = win5_4.index t (1 : Fin 2) * 64 + 1 * (j 1).val; omega
  have h1 : ((cfg5.win 1).blk t).view.emb j = ((cfg5.win 4).blk t).view.emb j := by
    funext a; apply Fin.ext
    match a with
    | ⟨0, _⟩ => show win5_1.index t (0 : Fin 2) * 5000 + 1 * (j 0).val = win5_4.index t (0 : Fin 2) * 5000 + 1 * (j 0).val; omega
    | ⟨1, _⟩ => show win5_1.index t (1 : Fin 2) * 64 + 1 * (j 1).val = win5_4.index t (1 : Fin 2) * 64 + 1 * (j 1).val; omega
  have h2 : ((cfg5.win 2).blk t).view.emb (blockScaleAt64 j) = scaleAt64 (((cfg5.win 4).blk t).view.emb j) := by
    funext a; apply Fin.ext
    match a with
    | ⟨0, _⟩ => show win5_2.index t (0 : Fin 2) * 5000 + 1 * (j 0).val = win5_4.index t (0 : Fin 2) * 5000 + 1 * (j 0).val; omega
    | ⟨1, _⟩ => show win5_2.index t (1 : Fin 2) * 1 + 1 * 0 = 0; omega
  have h3 : ((cfg5.win 3).blk t).view.emb (blockBiasAt64 j) = biasAt64 (((cfg5.win 4).blk t).view.emb j) := by
    funext a; apply Fin.ext
    match a with
    | ⟨0, _⟩ => show win5_3.index t (0 : Fin 2) * 1 + 1 * 0 = 0; omega
    | ⟨1, _⟩ => show win5_3.index t (1 : Fin 2) * 64 + 1 * (j 1).val = win5_4.index t (1 : Fin 2) * 64 + 1 * (j 1).val; omega
  rw [h0, h1, h2, h3]

/-- An index of the array is in point `t`'s block iff each coordinate is in the block's range on its axis. -/
theorem mem_block5 (t : Fin cfg5.N) (i : S50000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v77).slice (win5_4.rect t)).set ↔ _
  rw [View.set_slice_whole, Rect.mem_set_unit]
  exact Iff.rfl

/-- Row `r` is in the block of point `r / 5000`: the ten blocks tile the array. -/
theorem tiled5 (i : S50000x64.Idx) : ∃ t : Fin cfg5.N, (cfg5.win 4).flush t = true ∧ i ∈ ((cfg5.win 4).blk t).view.set := by
  have hi0 : (i 0).val < 50000 := (i 0).isLt
  have hi1 : (i 1).val < 64 := (i 1).isLt
  have hN : cfg5.N = 10 := N_5
  have ht : (i 0).val / 5000 < cfg5.N := by rw [hN]; omega
  obtain ⟨-, -, -, -, -, -, -, -, e1, e0⟩ := blockIndex5 ⟨(i 0).val / 5000, ht⟩
  have e0' : win5_4.index ⟨(i 0).val / 5000, ht⟩ (0 : Fin 2) = (i 0).val / 5000 := e0
  refine ⟨⟨(i 0).val / 5000, ht⟩, flush5_4 _, ?_⟩
  rw [mem_block5]
  intro a
  match a with
  | ⟨0, _⟩ => show win5_4.index ⟨(i 0).val / 5000, ht⟩ (0 : Fin 2) * 5000 ≤ (i 0).val ∧ (i 0).val < win5_4.index ⟨(i 0).val / 5000, ht⟩ (0 : Fin 2) * 5000 + 5000; omega
  | ⟨1, _⟩ => show win5_4.index ⟨(i 0).val / 5000, ht⟩ (1 : Fin 2) * 64 ≤ (i 1).val ∧ (i 1).val < win5_4.index ⟨(i 0).val / 5000, ht⟩ (1 : Fin 2) * 64 + 64; omega

/-! ## The three regions -/

set_option quotPrecheck false in
/-- The TensorCore's buffer contents when a region is entered. -/
local notation "Entry" => (c : Dev nD) → (b : Ref sig .tc) → Buf (Elt Ideal) ((c : Thread nD τ).loc b)

/-- Region 1: the first layer's output. -/
theorem combine1 (V : Entry) (c : Dev nD) :
    (dat1 (F := Ideal) V c).arrAt 4 cfg1.N
      = Cert.Gcn.comb128 (F := Ideal) (V c main_v40) (V c main_v27) (V c main_v41) (V c main_v42) :=
  (dat1 (F := Ideal) V c).arrAt_eq_of_cover 4 _ (fun t _ => writtenBack1 V c t) tiled1

/-- Region 3: the second layer's output. -/
theorem combine3 (V : Entry) (c : Dev nD) :
    (dat3 (F := Ideal) V c).arrAt 4 cfg3.N
      = Cert.Gcn.comb128 (F := Ideal) (V c main_v57) (V c main_v44) (V c main_v58) (V c main_v59) :=
  (dat3 (F := Ideal) V c).arrAt_eq_of_cover 4 _ (fun t _ => writtenBack3 V c t) tiled3

/-- Region 5: the third layer's output under the ReLU. -/
theorem combine5 (V : Entry) (c : Dev nD) :
    (dat5 (F := Ideal) V c).arrAt 4 cfg5.N
      = Cert.Gcn.relu64 (F := Ideal) (Cert.Gcn.comb64 (F := Ideal) (V c main_v74) (V c main_v61) (V c main_v75) (V c main_v76)) :=
  (dat5 (F := Ideal) V c).arrAt_eq_of_cover 4 _ (fun t _ => writtenBack5 V c t) tiled5

end Cert.KernelIdeal.RegionValue

end
-- ==== Proof.Chain.lean ====
/-
  The idealized kernel's result array as the network of its arguments.

  The contents at the last segment boundary, read at the result buffer, unfold layer by layer: a combine region
  leaves `(agg + xw · s) + b` of the four arrays it finds (under the ReLU in the last layer); of those, `agg` is what
  the host stretch before it computes from the product `xw` and the edge-only quantities, `s` and `b` are reshapes
  of the self-loop scale and of the bias argument, and `xw` is what the matrix-product region before the stretch
  leaves, `x · W` of the previous layer's output and the weight argument. The edge-only quantities are computed once,
  before the first region, and no later segment writes them; the reference recomputes them in every layer, the
  same terms of the edge list each time. So the result is three layers and a ReLU of the argument arrays: the same
  function the reference computes.
-/
import proofs.«144155_j80470507258222_1_alg».proof.Proof.LayerSpec
import proofs.«144155_j80470507258222_1_alg».proof.Proof.Layout
import proofs.«144155_j80470507258222_1_alg».proof.Proof.FoldKeep
import proofs.«144155_j80470507258222_1_alg».proof.Proof.RegionMatmul
import proofs.«144155_j80470507258222_1_alg».proof.Proof.RegionCombine
import Idealize.ShloMosaic.Lib.StableHlo.Run

set_option maxRecDepth 16384

noncomputable section

namespace Cert.KernelIdeal.Chain

open Cert.KernelIdeal Cert.KernelIdeal.Gen Cert.KernelIdeal.Fold
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The edge-only quantities, after the first host stretch

Each is the reference's stage of the same name applied to the edge list: the same operations in the same order. -/

/-- The source indices `edge_index[0]`. -/
theorem src_W1 (c : Dev nD) : W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  after_results
  rfl

/-- The destination indices `edge_index[1]`. -/
theorem dst_W1 (c : Dev nD) : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results
  rfl

set_option maxHeartbeats 4000000 in
/-- The per-edge scale `dinv[src] · dinv[dst]`. -/
theorem norm_W1 (c : Dev nD) : W1 m ρ c (Proc.devRef .tc main_v25) = Cert.ReferenceIdeal.Read.val_main_v26 (F := Ideal) (m ((c.tc : Thread nD τ).loc main_arg1)) := by
  show StableHlo.after hostOps0 (W0 m ρ c) (Proc.devRef .tc main_v25) = _
  after_results_simp
  rfl

/-- The self-loop scale `dinv · dinv`. -/
theorem self_W1 (c : Dev nD) : W1 m ρ c (Proc.devRef .tc main_v26) = Cert.ReferenceIdeal.Read.val_main_v40 (F := Ideal) (m ((c.tc : Thread nD τ).loc main_arg1)) := by
  show StableHlo.after hostOps0 (W0 m ρ c) (Proc.devRef .tc main_v26) = _
  after_results
  rfl

/-! ## Layer 1 -/

/-- The layer's product: the matrix-product region leaves `x · W` of the features it finds and the weight argument. -/
theorem xw1 (c : Dev nD) :
    W2 m ρ c (Proc.devRef .tc main_v27) = Cert.Gcn.mm128 (F := Ideal) (m ((c.tc : Thread nD τ).loc main_arg0)) (m ((c.tc : Thread nD τ).loc main_arg2)) :=
  (W2_arr m ρ c 2).trans ((RegionValue.matmul0 (V1 m ρ) c).trans
    (congrArg₂ (Cert.Gcn.mm128 (F := Ideal)) (W1_main_arg0_W0 m ρ c) (W1_main_arg2_W0 m ρ c)))

set_option maxHeartbeats 4000000 in
/-- The host stretch's neighbourhood sum, of the product and the edge list. -/
theorem agg1 (c : Dev nD) :
    W3 m ρ c (Proc.devRef .tc main_v40) = Cert.Gcn.agg128 (F := Ideal) (W2 m ρ c (Proc.devRef .tc main_v27)) (m ((c.tc : Thread nD τ).loc main_arg1)) := by
  show StableHlo.after hostOps1 (W2 m ρ c) (Proc.devRef .tc main_v40) = _
  after_results_simp
  rw [(W2_main_v3_W1 m ρ c), (W2_main_v1_W1 m ρ c), (W2_main_v25_W1 m ρ c), dst_W1 m ρ c, src_W1 m ρ c, norm_W1 m ρ c]
  rfl

/-- The host stretch leaves the product where it was. -/
theorem xw1_kept (c : Dev nD) : W3 m ρ c (Proc.devRef .tc main_v27) = W2 m ρ c (Proc.devRef .tc main_v27) := by
  show StableHlo.after hostOps1 (W2 m ρ c) (Proc.devRef .tc main_v27) = _
  after_results

/-- The self-loop scale as a column: the reshape of the edge-only product `dinv · dinv`. -/
theorem col1 (c : Dev nD) : W3 m ρ c (Proc.devRef .tc main_v41) = Cert.Gcn.selfCol (F := Ideal) (m ((c.tc : Thread nD τ).loc main_arg1)) := by
  show StableHlo.after hostOps1 (W2 m ρ c) (Proc.devRef .tc main_v41) = _
  after_results
  rw [(W2_main_v26_W1 m ρ c), self_W1 m ρ c]
  exact Cert.Layout.col_eq (a := 50000) (by decide) (Cert.ReferenceIdeal.Read.val_main_v40 (F := Ideal) (m ((c.tc : Thread nD τ).loc main_arg1))) shapeCasts_S50000_S50000x1 Cert.ReferenceIdeal.Gen.bcast_S50000_S50000x1_0

/-- The bias as a row: the reshape of the bias argument. -/
theorem row1 (c : Dev nD) : W3 m ρ c (Proc.devRef .tc main_v42) = Cert.Gcn.row128 (F := Ideal) (m ((c.tc : Thread nD τ).loc main_arg3)) := by
  show StableHlo.after hostOps1 (W2 m ρ c) (Proc.devRef .tc main_v42) = _
  after_results
  rw [W2_main_arg3_W0 m ρ c]
  exact Cert.Layout.row_eq (a := 128) (by decide) (m ((c.tc : Thread nD τ).loc main_arg3)) shapeCasts_S128_S1x128 Cert.ReferenceIdeal.Gen.bcast_S128_S1x128_1

/-- The layer's output: the combine region leaves `(agg + xw · s) + b`, which is the layer of its input features. -/
theorem out1 (c : Dev nD) :
    W4 m ρ c (Proc.devRef .tc main_v43) = Cert.Gcn.layer128 (F := Ideal) (m ((c.tc : Thread nD τ).loc main_arg0)) (m ((c.tc : Thread nD τ).loc main_arg1)) (m ((c.tc : Thread nD τ).loc main_arg2)) (m ((c.tc : Thread nD τ).loc main_arg3)) := by
  refine (W4_arr m ρ c 4).trans ((RegionValue.combine1 (V3 m ρ) c).trans ?_)
  show Cert.Gcn.comb128 (F := Ideal) (W3 m ρ c (Proc.devRef .tc main_v40)) (W3 m ρ c (Proc.devRef .tc main_v27)) (W3 m ρ c (Proc.devRef .tc main_v41)) (W3 m ρ c (Proc.devRef .tc main_v42)) = _
  rw [agg1 m ρ c, xw1_kept m ρ c, col1 m ρ c, row1 m ρ c, xw1 m ρ c]
  rfl

/-! ## Layer 2 -/

/-- The layer's product: the matrix-product region leaves `x · W` of the features it finds and the weight argument. -/
theorem xw2 (c : Dev nD) :
    W5 m ρ c (Proc.devRef .tc main_v44) = Cert.Gcn.mm128 (F := Ideal) (W4 m ρ c (Proc.devRef .tc main_v43)) (m ((c.tc : Thread nD τ).loc main_arg4)) :=
  (W5_arr m ρ c 2).trans ((RegionValue.matmul2 (V4 m ρ) c).trans
    (congrArg₂ (Cert.Gcn.mm128 (F := Ideal)) rfl (W4_main_arg4_W0 m ρ c)))

set_option maxHeartbeats 4000000 in
/-- The host stretch's neighbourhood sum, of the product and the edge list. -/
theorem agg2 (c : Dev nD) :
    W6 m ρ c (Proc.devRef .tc main_v57) = Cert.Gcn.agg128 (F := Ideal) (W5 m ρ c (Proc.devRef .tc main_v44)) (m ((c.tc : Thread nD τ).loc main_arg1)) := by
  show StableHlo.after hostOps3 (W5 m ρ c) (Proc.devRef .tc main_v57) = _
  after_results_simp
  rw [((W5_main_v3_W2 m ρ c).trans (W2_main_v3_W1 m ρ c)), ((W5_main_v1_W2 m ρ c).trans (W2_main_v1_W1 m ρ c)), ((W5_main_v25_W2 m ρ c).trans (W2_main_v25_W1 m ρ c)), dst_W1 m ρ c, src_W1 m ρ c, norm_W1 m ρ c]
  rfl

/-- The host stretch leaves the product where it was. -/
theorem xw2_kept (c : Dev nD) : W6 m ρ c (Proc.devRef .tc main_v44) = W5 m ρ c (Proc.devRef .tc main_v44) := by
  show StableHlo.after hostOps3 (W5 m ρ c) (Proc.devRef .tc main_v44) = _
  after_results

/-- The self-loop scale as a column: the reshape of the edge-only product `dinv · dinv`. -/
theorem col2 (c : Dev nD) : W6 m ρ c (Proc.devRef .tc main_v58) = Cert.Gcn.selfCol (F := Ideal) (m ((c.tc : Thread nD τ).loc main_arg1)) := by
  show StableHlo.after hostOps3 (W5 m ρ c) (Proc.devRef .tc main_v58) = _
  after_results
  rw [((W5_main_v26_W2 m ρ c).trans (W2_main_v26_W1 m ρ c)), self_W1 m ρ c]
  exact Cert.Layout.col_eq (a := 50000) (by decide) (Cert.ReferenceIdeal.Read.val_main_v40 (F := Ideal) (m ((c.tc : Thread nD τ).loc main_arg1))) shapeCasts_S50000_S50000x1 Cert.ReferenceIdeal.Gen.bcast_S50000_S50000x1_0

/-- The bias as a row: the reshape of the bias argument. -/
theorem row2 (c : Dev nD) : W6 m ρ c (Proc.devRef .tc main_v59) = Cert.Gcn.row128 (F := Ideal) (m ((c.tc : Thread nD τ).loc main_arg5)) := by
  show StableHlo.after hostOps3 (W5 m ρ c) (Proc.devRef .tc main_v59) = _
  after_results
  rw [W5_main_arg5_W0 m ρ c]
  exact Cert.Layout.row_eq (a := 128) (by decide) (m ((c.tc : Thread nD τ).loc main_arg5)) shapeCasts_S128_S1x128 Cert.ReferenceIdeal.Gen.bcast_S128_S1x128_1

/-- The layer's output: the combine region leaves `(agg + xw · s) + b`, which is the layer of its input features. -/
theorem out2 (c : Dev nD) :
    W7 m ρ c (Proc.devRef .tc main_v60) = Cert.Gcn.layer128 (F := Ideal) (W4 m ρ c (Proc.devRef .tc main_v43)) (m ((c.tc : Thread nD τ).loc main_arg1)) (m ((c.tc : Thread nD τ).loc main_arg4)) (m ((c.tc : Thread nD τ).loc main_arg5)) := by
  refine (W7_arr m ρ c 4).trans ((RegionValue.combine3 (V6 m ρ) c).trans ?_)
  show Cert.Gcn.comb128 (F := Ideal) (W6 m ρ c (Proc.devRef .tc main_v57)) (W6 m ρ c (Proc.devRef .tc main_v44)) (W6 m ρ c (Proc.devRef .tc main_v58)) (W6 m ρ c (Proc.devRef .tc main_v59)) = _
  rw [agg2 m ρ c, xw2_kept m ρ c, col2 m ρ c, row2 m ρ c, xw2 m ρ c]
  rfl

/-! ## Layer 3 -/

/-- The layer's product: the matrix-product region leaves `x · W` of the features it finds and the weight argument. -/
theorem xw3 (c : Dev nD) :
    W8 m ρ c (Proc.devRef .tc main_v61) = Cert.Gcn.mm64 (F := Ideal) (W7 m ρ c (Proc.devRef .tc main_v60)) (m ((c.tc : Thread nD τ).loc main_arg6)) :=
  (W8_arr m ρ c 2).trans ((RegionValue.matmul4 (V7 m ρ) c).trans
    (congrArg₂ (Cert.Gcn.mm64 (F := Ideal)) rfl (W7_main_arg6_W0 m ρ c)))

set_option maxHeartbeats 4000000 in
/-- The host stretch's neighbourhood sum, of the product and the edge list. -/
theorem agg3 (c : Dev nD) :
    W9 m ρ c (Proc.devRef .tc main_v74) = Cert.Gcn.agg64 (F := Ideal) (W8 m ρ c (Proc.devRef .tc main_v61)) (m ((c.tc : Thread nD τ).loc main_arg1)) := by
  show StableHlo.after hostOps5 (W8 m ρ c) (Proc.devRef .tc main_v74) = _
  after_results_simp
  rw [((W8_main_v3_W5 m ρ c).trans ((W5_main_v3_W2 m ρ c).trans (W2_main_v3_W1 m ρ c))), ((W8_main_v1_W5 m ρ c).trans ((W5_main_v1_W2 m ρ c).trans (W2_main_v1_W1 m ρ c))), ((W8_main_v25_W5 m ρ c).trans ((W5_main_v25_W2 m ρ c).trans (W2_main_v25_W1 m ρ c))), dst_W1 m ρ c, src_W1 m ρ c, norm_W1 m ρ c]
  rfl

/-- The host stretch leaves the product where it was. -/
theorem xw3_kept (c : Dev nD) : W9 m ρ c (Proc.devRef .tc main_v61) = W8 m ρ c (Proc.devRef .tc main_v61) := by
  show StableHlo.after hostOps5 (W8 m ρ c) (Proc.devRef .tc main_v61) = _
  after_results

/-- The self-loop scale as a column: the reshape of the edge-only product `dinv · dinv`. -/
theorem col3 (c : Dev nD) : W9 m ρ c (Proc.devRef .tc main_v75) = Cert.Gcn.selfCol (F := Ideal) (m ((c.tc : Thread nD τ).loc main_arg1)) := by
  show StableHlo.after hostOps5 (W8 m ρ c) (Proc.devRef .tc main_v75) = _
  after_results
  rw [((W8_main_v26_W5 m ρ c).trans ((W5_main_v26_W2 m ρ c).trans (W2_main_v26_W1 m ρ c))), self_W1 m ρ c]
  exact Cert.Layout.col_eq (a := 50000) (by decide) (Cert.ReferenceIdeal.Read.val_main_v40 (F := Ideal) (m ((c.tc : Thread nD τ).loc main_arg1))) shapeCasts_S50000_S50000x1 Cert.ReferenceIdeal.Gen.bcast_S50000_S50000x1_0

/-- The bias as a row: the reshape of the bias argument. -/
theorem row3 (c : Dev nD) : W9 m ρ c (Proc.devRef .tc main_v76) = Cert.Gcn.row64 (F := Ideal) (m ((c.tc : Thread nD τ).loc main_arg7)) := by
  show StableHlo.after hostOps5 (W8 m ρ c) (Proc.devRef .tc main_v76) = _
  after_results
  rw [W8_main_arg7_W0 m ρ c]
  exact Cert.Layout.row_eq (a := 64) (by decide) (m ((c.tc : Thread nD τ).loc main_arg7)) shapeCasts_S64_S1x64 Cert.ReferenceIdeal.Gen.bcast_S64_S1x64_1

/-- The layer's output: the combine region leaves `(agg + xw · s) + b` under the ReLU, which is the layer of its input features. -/
theorem out3 (c : Dev nD) :
    W10 m ρ c (Proc.devRef .tc main_v77) = Cert.Gcn.relu64 (F := Ideal) (Cert.Gcn.layer64 (F := Ideal) (W7 m ρ c (Proc.devRef .tc main_v60)) (m ((c.tc : Thread nD τ).loc main_arg1)) (m ((c.tc : Thread nD τ).loc main_arg6)) (m ((c.tc : Thread nD τ).loc main_arg7))) := by
  refine (W10_arr m ρ c 4).trans ((RegionValue.combine5 (V9 m ρ) c).trans ?_)
  show Cert.Gcn.relu64 (F := Ideal) (Cert.Gcn.comb64 (F := Ideal) (W9 m ρ c (Proc.devRef .tc main_v74)) (W9 m ρ c (Proc.devRef .tc main_v61)) (W9 m ρ c (Proc.devRef .tc main_v75)) (W9 m ρ c (Proc.devRef .tc main_v76))) = _
  rw [agg3 m ρ c, xw3_kept m ρ c, col3 m ρ c, row3 m ρ c, xw3 m ρ c]
  rfl

/-! ## The result -/

/-- The result array at the last boundary is the network of the argument arrays. -/
theorem result (c : Dev nD) :
    W10 m ρ c (Proc.devRef .tc main_v77)
      = Cert.Gcn.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [out3 m ρ c, out2 m ρ c, out1 m ρ c]
  rfl

end Cert.KernelIdeal.Chain

end
-- ==== Proof.lean ====
/-
  A three-layer graph convolution (N = 50000 nodes, E = 800000 edges, widths 128 → 128 → 128 → 64, one ReLU at
  the end): a kernel that tiles each layer's matrix product `x · W` and its combination `(agg + xw · s) + b` over ten
  blocks of 5000 rows and leaves the edge-indexed gather, scale and scatter-add between them to host operations,
  against a reference that runs the whole network as host operations.

  On the extended reals the two compute one function of the arguments, term for term. The change of float format
  before each product is the identity; a product into a zero accumulator is the plain sum over the contracted
  axis, block by block what the whole product is; the combination groups its three summands the same way on
  both sides; the edge-only quantities (degree, its inverse square root, the per-edge and self-loop scales) are
  the same operations of the edge list, computed once by the kernel and once per layer by the reference. No
  algebraic law is used beyond that, so the inputs' finiteness is never opened.

  The modules: LayerSpec (the network as whole-array functions, and the reference's last stage as that network),
  RegionMatmul and RegionCombine (each tiled region leaves its whole-array function of what it finds), KernelRun
  (the kernel's run with its result array named), FoldKeep and Layout (buffers a stretch leaves alone; a reshape
  that adds a unit axis is a broadcast), Chain (the kernel's result array is the network of its arguments).
  The frames are the generated ones; the reference's is its generated run with the result dropped; the
  idealization rewrote nothing, so it preserves trivially.
-/
import proofs.«144155_j80470507258222_1_alg».proof.Defs
import proofs.«144155_j80470507258222_1_alg».proof.Proof.Gen.Kernel
import proofs.«144155_j80470507258222_1_alg».proof.Proof.Gen.Kernel.Frame
import proofs.«144155_j80470507258222_1_alg».proof.Proof.Gen.KernelIdeal
import proofs.«144155_j80470507258222_1_alg».proof.Proof.Gen.KernelIdeal.Frame
import proofs.«144155_j80470507258222_1_alg».proof.Proof.Gen.ReferenceIdeal
import proofs.«144155_j80470507258222_1_alg».proof.Proof.Gen.ReferenceIdeal.Run
import proofs.«144155_j80470507258222_1_alg».proof.Proof.Gen.ReferenceIdeal.Read
import proofs.«144155_j80470507258222_1_alg».proof.Proof.Gen.Pre_finite_inputs
import proofs.«144155_j80470507258222_1_alg».proof.Proof.LayerSpec
import proofs.«144155_j80470507258222_1_alg».proof.Proof.KernelRun
import proofs.«144155_j80470507258222_1_alg».proof.Proof.Chain
import Idealize.ShloMosaic.Adequacy
import Idealize.ShloMosaic.Init

noncomputable section

namespace Cert.Proof

open Idealize.ShloMosaic Idealize.SL.Sem

/-- The kernel as printed runs and leaves its arguments alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network of the (agreeing) arguments in their result arrays. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v136_eq, Cert.Gcn.ref_net, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
